-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S8192x4096 : Shape := ⟨2, ![8192, 4096]⟩
abbrev S1024x1024 : Shape := ⟨2, ![1024, 1024]⟩
abbrev S1024x2048 : Shape := ⟨2, ![1024, 2048]⟩
abbrev S1x2048 : Shape := ⟨2, ![1, 2048]⟩

abbrev nBuf : Space → Nat
  | .hbm => 15
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096x4096, .bf16⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_cst_0 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  shapeCasts_S4x2048x4096_S8192x4096 : S4x2048x4096.ShapeCasts S8192x4096
  shapeCasts_S8192x4096_S4x2048x4096 : S8192x4096.ShapeCasts S4x2048x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_call0_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
import proofs.«163641_j57492432224589_2_alg».proof.Proof.Gen.KernelIdeal.Frame
import Idealize.ShloMosaic.Lib.Pipeline.Value
import Idealize.ShloMosaic.Lib.Tactic

/-! What one run of the body leaves behind, in each of its three cases, as stored values.

At the first step of a reduction the accumulator is zeroed and then receives the first block
product; at a middle step it receives one more block product; at the last step it receives the last
block product and the output block is the accumulator times the scale row. -/

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step: the accumulator ends at the first block product added to the zero block. -/
theorem acc_first (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x1024 .f32) (x1 : Vec F S1024x2048 .bf16) (x2 : Vec F S1x2048 .f32) :
    sout0_A_0 c i arg3 harg3 arg4 harg4 arg5 harg5 arg6 harg6 arg7 harg7 hc0 hc1 x0 x1 x2 = k0_pay2 x0 (k0_pay1 (F := F)) x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x1024) hz,
    View.ld_unit_zero (S := S1024x2048) hz]

/-- Middle step: the accumulator, found at `xs0`, ends at `xs0` plus the block product. -/
theorem acc_middle (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x1024 .f32) (x1 : Vec F S1024x2048 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x2048) hz]
  simp only [View.readAt_eq_ld, harg3.read_unread, harg4.read_unread, harg7.read_unread, View.ld_unit_zero (S := S1024x1024) hz,
    View.ld_unit_zero (S := S1024x2048) hz]

/-- Last step: the accumulator ends at `xs0` plus the block product, -/
theorem acc_last (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .f32) (x1 : Vec F S1024x2048 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 x0 xs0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x2048) hz]
  simp only [View.readAt_eq_ld, harg3.read_unread, harg4.read_unread, harg7.read_unread, View.ld_unit_zero (S := S1024x1024) hz,
    View.ld_unit_zero (S := S1024x2048) hz]

/-- and the output block is that accumulator scaled column by column. -/
theorem out_last (c : Dev nD) (i : grid0.Coords) (arg3 : Memref sig .tc .vmem S1024x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x1024 .f32) (x1 : Vec F S1024x2048 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 x0 xs0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) hz, View.readCov_unit_zero (S := S1024x2048) _ hz]
  simp only [View.readAt_eq_ld, harg3.read_unread, harg4.read_unread, harg5.read_unread, harg7.read_unread,
    View.ld_unit_zero (S := S1024x1024) hz, View.ld_unit_zero (S := S1024x2048) hz, View.ld_unit_zero (S := S1x2048) hz]

end Cert.KernelIdeal.Pieces

end
-- ==== Proof.Payload.lean ====
import proofs.«163641_j57492432224589_2_alg».proof.Proof.Gen.KernelIdeal.Skeleton
import Idealize.ShloMosaic.Lib.Pipeline.Value
import Idealize.ShloMosaic.Lib.ValueIdx
import Idealize.ShloMosaic.PureOps.Ideal.Laws

/-! The body's three stored values, read entry by entry over the extended reals.

The reset stores the zero block.  The accumulation stores, at row `a` and column `d`, the old
accumulator entry plus the inner product of row `a` of the left block with column `d` of the right
block (the change of float format is the identity, and the product unit starts from zero).  The
last step stores the accumulator entry times the scale of column `d`. -/

noncomputable section

namespace Cert.KernelIdeal.Payload

open Cert.KernelIdeal Cert.KernelIdeal.Gen Idealize.ShloMosaic Idealize.ShloMosaic.ValueIdx

/-- The contraction of a 1024×1024 block with a 1024×2048 block along the shared axis. -/
abbrev D : DotDims S1024x1024 S1024x2048 S1024x2048 := dot_S1024x1024_S1024x2048_S1024x2048_1_0_0_1_n_n

theorem lhs0 (j : S1024x2048.Idx) (q : D.contr.Idx) : (D.lhsIdx j q 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs1 (j : S1024x2048.Idx) (q : D.contr.Idx) : (D.lhsIdx j q 1).val = (q ⟨0, by decide⟩).val :=
  D.lhsIdx_val_of_single rfl j q
theorem rhs0 (j : S1024x2048.Idx) (q : D.contr.Idx) : (D.rhsIdx j q 0).val = (q ⟨0, by decide⟩).val :=
  D.rhsIdx_val_of_single rfl j q
theorem rhs1 (j : S1024x2048.Idx) (q : D.contr.Idx) : (D.rhsIdx j q 1).val = (j 1).val := by
  unfold DotDims.rhsIdx
  rw [dif_neg (show ¬(1 : Fin S1024x2048.rank) ∈ D.rhsBatch by decide), dif_pos (show (1 : Fin S1024x2048.rank) ∈ D.rhsNonContracting by decide)]
  rfl

/-- The block product from zero, at row `a` and column `d`: the inner product over the 1024 shared
    coordinates. -/
theorem matmul_zero_apply (l : FVec Ideal S1024x1024 .bf16) (r : FVec Ideal S1024x2048 .bf16) (a : Fin 1024) (d : Fin 2048) :
    matmul D none l r (constant (F := Ideal) S1024x2048 .f32 0x00000000#32) (ix2 a d)
      = ∑ b : Fin 1024, l (ix2 a b) * r (ix2 b d) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 a d) ((contrEquiv1 D 1024 rfl rfl).symm k) = ix2 a k := funext fun x => Fin.ext (by
    match x with
    | ⟨0, _⟩ => exact lhs0 _ _
    | ⟨1, _⟩ => exact (lhs1 _ _).trans hk)
  have er : D.rhsIdx (ix2 a d) ((contrEquiv1 D 1024 rfl rfl).symm k) = ix2 k d := funext fun x => Fin.ext (by
    match x with
    | ⟨0, _⟩ => exact (rhs0 _ _).trans hk
    | ⟨1, _⟩ => exact rhs1 _ _)
  rw [el, er]

/-- The reset's block is zero everywhere. -/
theorem pay1_apply (j : S1024x2048.Idx) : k0_pay1 (F := Ideal) j = 0 := by
  unfold k0_pay1
  rw [shapeCast_self]
  exact Ideal.ofBits_zero_f32

/-- The accumulation's block: the old entry plus the inner product. -/
theorem pay2_apply (x0 : Vec Ideal S1024x1024 .f32) (acc : Vec Ideal S1024x2048 .f32) (x1 : Vec Ideal S1024x2048 .bf16)
    (a : Fin 1024) (d : Fin 2048) :
    k0_pay2 x0 acc x1 (ix2 a d) = acc (ix2 a d) + ∑ b : Fin 1024, x0 (ix2 a b) * x1 (ix2 b d) := by
  unfold k0_pay2
  simp only [shapeCast_self]
  rw [addf_apply, matmul_zero_apply]
  rfl

/-- The last step's block: the accumulator entry times the column's scale. -/
theorem pay3_apply (acc : Vec Ideal S1024x2048 .f32) (sc : Vec Ideal S1x2048 .f32) (a : Fin 1024) (d : Fin 2048) :
    k0_pay3 acc sc (ix2 a d) = acc (ix2 a d) * sc (ix2 0 d) := by
  unfold k0_pay3
  simp only [shapeCast_self]
  rw [mulf_apply]
  refine congrArg (acc (ix2 a d) * ·) ?_
  exact broadcastTo_apply sc broadcasts_S1x2048_S1024x2048 (ix2 a d) (ix2 0 d) (fun x => by
    match x with
    | ⟨0, _⟩ => show 0 = if (1 : Nat) = 1 then 0 else _; rw [if_pos rfl]
    | ⟨1, _⟩ => show d.val = if (2048 : Nat) = 1 then 0 else d.val; rw [if_neg (by decide)])

end Cert.KernelIdeal.Payload

end
-- ==== Proof.Law.lean ====
import Idealize.ShloMosaic.PureOps.Ideal.Laws

/-! Sums over the extended reals.

Two facts carry the whole comparison.  A product of a finite sum of products of reals with a real is
the sum of the re-bracketed products (distributivity, which holds among finite values).  And a sum
over the first `n + m` naturals splits at `n`, so that a long sum can be gathered block by block. -/

noncomputable section

namespace Cert.Law

open Idealize.ShloMosaic

/-- The embedding of the reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A real factor moves inside a finite sum of products of reals:
    `(∑ₖ aₖ · bₖ) · s = ∑ₖ aₖ · (bₖ · s)`. -/
theorem sum_mul_of_real {ι : Type*} [Fintype ι] (a b : ι → EReal) (s : EReal)
    (ha : ∀ k, ∃ r : ℝ, a k = r) (hb : ∀ k, ∃ r : ℝ, b k = r) (hs : ∃ r : ℝ, s = r) :
    (∑ k, a k * b k) * s = ∑ k, a k * (b k * s) := by
  choose a' ha' using ha
  choose b' hb' using hb
  obtain ⟨s', rfl⟩ := hs
  obtain rfl : a = fun k => ((a' k : ℝ) : EReal) := funext ha'
  obtain rfl : b = fun k => ((b' k : ℝ) : EReal) := funext hb'
  simp only [← EReal.coe_mul, ← coe_finset_sum]
  rw [Finset.sum_mul]
  exact congrArg _ (Finset.sum_congr rfl fun k _ => mul_assoc _ _ _)

/-- A finite sum of reals is a real. -/
theorem sum_real {ι : Type*} (s : Finset ι) (f : ι → EReal) (hf : ∀ k, ∃ r : ℝ, f k = r) :
    ∃ r : ℝ, ∑ k ∈ s, f k = r := by
  choose f' hf' using hf
  obtain rfl : f = fun k => ((f' k : ℝ) : EReal) := funext hf'
  exact ⟨_, (coe_finset_sum s f').symm⟩

/-- The sum of a sequence over its first `n + m` terms is the sum over the first `n` plus the sum of
    the next `m`, the latter indexed by `Fin m`. -/
theorem sum_range_add_fin {M : Type*} [AddCommMonoid M] (f : ℕ → M) (n m : ℕ) :
    ∑ κ ∈ Finset.range (n + m), f κ = ∑ κ ∈ Finset.range n, f κ + ∑ b : Fin m, f (n + b.val) := by
  rw [Finset.sum_range_add]
  exact congrArg _ (Finset.sum_range fun x => f (n + x))

end Cert.Law

end
-- ==== Proof.Spec.lean ====
import proofs.«163641_j57492432224589_2_alg».proof.Proof.Law
import Idealize.ShloMosaic.Lib.ValueIdx

/-! The partial inner products the accumulator runs through.

For a left matrix `X` and a right matrix `W`, `psum X W r q n` is the sum over the first `n`
shared coordinates `κ` of `X[r, κ] · W[κ, q]`.  Rows, columns and shared coordinates are plain
naturals (an entry outside the matrix reads as zero), so that the block arithmetic of the grid
— row `1024·i + a`, shared coordinate `1024·k + b` — is arithmetic on naturals. -/

noncomputable section

namespace Cert.Spec

open Idealize.ShloMosaic Idealize.ShloMosaic.ValueIdx

/-- Entry `(r, q)` of a matrix, zero outside it. -/
def at2 {n0 n1 : ℕ} (X : (⟨2, ![n0, n1]⟩ : Shape).Idx → EReal) (r q : ℕ) : EReal :=
  if h : r < n0 ∧ q < n1 then X (ix2 ⟨r, h.1⟩ ⟨q, h.2⟩) else 0

theorem at2_of_lt {n0 n1 : ℕ} (X : (⟨2, ![n0, n1]⟩ : Shape).Idx → EReal) (r q : ℕ) (hr : r < n0) (hq : q < n1) :
    at2 X r q = X (ix2 ⟨r, hr⟩ ⟨q, hq⟩) := dif_pos ⟨hr, hq⟩

theorem at2_fin {n0 n1 : ℕ} (X : (⟨2, ![n0, n1]⟩ : Shape).Idx → EReal) (r : Fin n0) (q : Fin n1) :
    at2 X r.val q.val = X (ix2 r q) := at2_of_lt X _ _ r.isLt q.isLt

/-- The inner product of row `r` of `X` with column `q` of `W` over the first `n` shared coordinates. -/
def psum {n0 n1 n2 : ℕ} (X : (⟨2, ![n0, n1]⟩ : Shape).Idx → EReal) (W : (⟨2, ![n1, n2]⟩ : Shape).Idx → EReal)
    (r q n : ℕ) : EReal :=
  ∑ κ ∈ Finset.range n, at2 X r κ * at2 W κ q

theorem psum_zero {n0 n1 n2 : ℕ} (X : (⟨2, ![n0, n1]⟩ : Shape).Idx → EReal) (W : (⟨2, ![n1, n2]⟩ : Shape).Idx → EReal)
    (r q : ℕ) : psum X W r q 0 = 0 := Finset.sum_range_zero _

/-- One more block of `s` shared coordinates. -/
theorem psum_add {n0 n1 n2 : ℕ} (X : (⟨2, ![n0, n1]⟩ : Shape).Idx → EReal) (W : (⟨2, ![n1, n2]⟩ : Shape).Idx → EReal)
    (r q n s : ℕ) :
    psum X W r q (n + s) = psum X W r q n + ∑ b : Fin s, at2 X r (n + b.val) * at2 W (n + b.val) q :=
  Law.sum_range_add_fin _ n s

/-- Over all shared coordinates it is the full inner product. -/
theorem psum_full {n0 n1 n2 : ℕ} (X : (⟨2, ![n0, n1]⟩ : Shape).Idx → EReal) (W : (⟨2, ![n1, n2]⟩ : Shape).Idx → EReal)
    (r : Fin n0) (q : Fin n2) :
    psum X W r.val q.val n1 = ∑ κ : Fin n1, X (ix2 r κ) * W (ix2 κ q) := by
  unfold psum
  rw [Finset.sum_range]
  exact Finset.sum_congr rfl fun κ _ => by rw [at2_fin, at2_fin]

end Cert.Spec

end
-- ==== Proof.Blocks.lean ====
import proofs.«163641_j57492432224589_2_alg».proof.Proof.Gen.KernelIdeal.Frame.Runs
import proofs.«163641_j57492432224589_2_alg».proof.Proof.Spec
import Idealize.ShloMosaic.Lib.Pipeline.Value

/-! The blocks the grid points read.

Grid point `t` of the 8 × 2 × 4 grid is `(i, j, k) = (t / 8, t / 4 % 2, t % 4)`.  There the left
operand's block is rows `1024·i …` and shared coordinates `1024·k …` of the reshaped input, the right
operand's block is shared coordinates `1024·k …` and columns `2048·j …` of the transposed sign
matrix, and the scale block is columns `2048·j …` of the scale row. -/

noncomputable section

namespace Cert.KernelIdeal.Blocks

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- Each window's block index at point `t`, read off the point's coordinates. -/
theorem idx_facts : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- The reshaped input, the transposed sign matrix and the scale row, as the region finds them. -/
abbrev X (c : Dev nD) : S8192x4096.Idx → EReal := V m c main_call0_v8
abbrev W (c : Dev nD) : S4096x4096.Idx → EReal := V m c main_call0_v6
abbrev Sc (c : Dev nD) : S1x4096.Idx → EReal := V m c main_call0_v7

theorem blk0 (c : Dev nD) (t : Fin cfg0.N) (a b : Fin 1024) :
    (iblk m c 0 t : Vec Ideal S1024x1024 .f32) (ix2 a b)
      = at2 (X m c) (1024 * (t.val / 8) + a.val) (1024 * (t.val % 4) + b.val) := by
  obtain ⟨e0, e1, -⟩ := idx_facts t
  have hN : t.val < 64 := lt_of_lt_of_eq t.isLt N_0
  rw [at2_of_lt _ _ _ (by omega) (by omega)]
  unfold iblk
  rw [View.read_apply]
  show V m c main_call0_v8 _ = V m c main_call0_v8 _
  congr 1
  funext x
  apply Fin.ext
  match x with
  | ⟨0, _⟩ => show win0_0.index t 0 * 1024 + 1 * a.val = 1024 * (t.val / 8) + a.val; rw [e0]; omega
  | ⟨1, _⟩ => show win0_0.index t 1 * 1024 + 1 * b.val = 1024 * (t.val % 4) + b.val; rw [e1]; omega

theorem blk1 (c : Dev nD) (t : Fin cfg0.N) (b : Fin 1024) (d : Fin 2048) :
    (iblk m c 1 t : Vec Ideal S1024x2048 .bf16) (ix2 b d)
      = at2 (W m c) (1024 * (t.val % 4) + b.val) (2048 * (t.val / 4 % 2) + d.val) := by
  obtain ⟨-, -, e0, e1, -⟩ := idx_facts t
  have hN : t.val < 64 := lt_of_lt_of_eq t.isLt N_0
  rw [at2_of_lt _ _ _ (by omega) (by omega)]
  unfold iblk
  rw [View.read_apply]
  show V m c main_call0_v6 _ = V m c main_call0_v6 _
  congr 1
  funext x
  apply Fin.ext
  match x with
  | ⟨0, _⟩ => show win0_1.index t 0 * 1024 + 1 * b.val = 1024 * (t.val % 4) + b.val; rw [e0]; omega
  | ⟨1, _⟩ => show win0_1.index t 1 * 2048 + 1 * d.val = 2048 * (t.val / 4 % 2) + d.val; rw [e1]; omega

theorem blk2 (c : Dev nD) (t : Fin cfg0.N) (d : Fin 2048) :
    (iblk m c 2 t : Vec Ideal S1x2048 .f32) (ix2 0 d)
      = at2 (Sc m c) 0 (2048 * (t.val / 4 % 2) + d.val) := by
  obtain ⟨-, -, -, -, e0, e1, -⟩ := idx_facts t
  have hN : t.val < 64 := lt_of_lt_of_eq t.isLt N_0
  rw [at2_of_lt _ _ _ (by omega) (by omega)]
  unfold iblk
  rw [View.read_apply]
  show V m c main_call0_v7 _ = V m c main_call0_v7 _
  congr 1
  funext x
  apply Fin.ext
  match x with
  | ⟨0, _⟩ => show win0_2.index t 0 * 1 + 1 * 0 = 0; rw [e0]
  | ⟨1, _⟩ => show win0_2.index t 1 * 2048 + 1 * d.val = 2048 * (t.val / 4 % 2) + d.val; rw [e1]; omega

end Cert.KernelIdeal.Blocks

end
-- ==== Proof.Acc.lean ====
import proofs.«163641_j57492432224589_2_alg».proof.Proof.Pieces
import proofs.«163641_j57492432224589_2_alg».proof.Proof.Payload
import proofs.«163641_j57492432224589_2_alg».proof.Proof.Blocks

/-! The accumulator, point by point.

Along the innermost grid axis `k = t % 4` the accumulator of output block `(i, j)` gathers the
inner products 1024 shared coordinates at a time: after point `t` its entry `(a, d)` is the inner
product of row `1024·i + a` of the left matrix with column `2048·j + d` of the right matrix over the
first `1024·(k + 1)` shared coordinates.  At `k = 3` that is the full inner product, and the output
block is it times the column's scale. -/

noncomputable section

namespace Cert.KernelIdeal.Acc

open Cert.KernelIdeal Cert.KernelIdeal.Gen Idealize.ShloMosaic Idealize.ShloMosaic.TcCoe Idealize.SL.Sem
open Idealize.ShloMosaic.ValueIdx Cert.Spec Cert.KernelIdeal.Blocks

variable (m : (ℓ : Loc nD τ sig) → Buf (Elt Ideal) ℓ)

/-- What the recursion over the points says at a first step, a middle step and a last step. -/
theorem snd_first (c : Dev nD) (t : Fin cfg0.N) (h0 : t.val % 4 = 0) (h1 : ¬t.val % 4 = 3) :
    (outsAt0 m c t.val t.isLt).2 = sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) := by
  rw [outsAt0_A m c t h0 h1]
theorem snd_middle (c : Dev nD) (t : Fin cfg0.N) (h0 : ¬t.val % 4 = 0) (h1 : ¬t.val % 4 = 3) :
    (outsAt0 m c t.val t.isLt).2 = sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2 := by
  rw [outsAt0_B m c t h0 h1]
theorem snd_last (c : Dev nD) (t : Fin cfg0.N) (h0 : ¬t.val % 4 = 0) (h1 : t.val % 4 = 3) :
    (outsAt0 m c t.val t.isLt).2 = sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 := by
  rw [outsAt0_C m c t h0 h1]
theorem fst_last (c : Dev nD) (t : Fin cfg0.N) (h0 : ¬t.val % 4 = 0) (h1 : t.val % 4 = 3) :
    (outsAt0 m c t.val t.isLt).1 = out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 := by
  rw [outsAt0_C m c t h0 h1]

/-- At a first step the accumulator is the zero block plus the point's block product. -/
theorem first_pt (c : Dev nD) (t : Fin cfg0.N) (h0 : t.val % 4 = 0) :
    (outsAt0 m c t.val t.isLt).2 = k0_pay2 (iblk m c 0 t) (k0_pay1 (F := Ideal)) (iblk m c 1 t) :=
  have h1 : ¬t.val % 4 = 3 := by omega
  (snd_first m c t h0 h1).trans
    (Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- At a later step it is what the point before left plus the point's block product. -/
theorem next_pt (c : Dev nD) (t : Fin cfg0.N) (h0 : ¬t.val % 4 = 0) :
    (outsAt0 m c t.val t.isLt).2 = k0_pay2 (iblk m c 0 t) (outsAt0 m c (t.val - 1) (Nat.lt_of_le_of_lt (Nat.sub_le _ _) t.isLt)).2 (iblk m c 1 t) := by
  by_cases h1 : t.val % 4 = 3
  · exact (snd_last m c t h0 h1).trans
      (Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)
  · exact (snd_middle m c t h0 h1).trans
      (Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2)

/-- At a last step the output block is the accumulator, as that step leaves it, scaled. -/
theorem out_pt (c : Dev nD) (t : Fin cfg0.N) (h1 : t.val % 4 = 3) :
    (outsAt0 m c t.val t.isLt).1 = k0_pay3 (outsAt0 m c t.val t.isLt).2 (iblk m c 2 t) :=
  have h0 : ¬t.val % 4 = 0 := by omega
  (fst_last m c t h0 h1).trans
    ((Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
      (congrArg (fun z => k0_pay3 z (iblk m c 2 t)) (next_pt m c t h0).symm))

/-- One step at entry `(a, d)`: the old entry plus 1024 more terms of the inner product, those of the
    point's shared coordinates `1024·k …`. -/
theorem step_apply (c : Dev nD) (t : Fin cfg0.N) (acc : Vec Ideal S1024x2048 .f32) (a : Fin 1024) (d : Fin 2048) :
    k0_pay2 (iblk m c 0 t) acc (iblk m c 1 t) (ix2 a d)
      = acc (ix2 a d) + ∑ b : Fin 1024, at2 (X m c) (1024 * (t.val / 8) + a.val) (1024 * (t.val % 4) + b.val)
          * at2 (W m c) (1024 * (t.val % 4) + b.val) (2048 * (t.val / 4 % 2) + d.val) := by
  rw [Payload.pay2_apply]
  exact congrArg (acc (ix2 a d) + ·) (Finset.sum_congr rfl fun b _ => by rw [blk0, blk1])

/-- THE RUNNING SUM: after point `n` the accumulator's entry `(a, d)` is the inner product over the
    first `1024·(n % 4 + 1)` shared coordinates. -/
theorem acc_eq (c : Dev nD) : ∀ (n : ℕ) (hn : n < cfg0.N) (a : Fin 1024) (d : Fin 2048),
    (outsAt0 m c n hn).2 (ix2 a d)
      = psum (X m c) (W m c) (1024 * (n / 8) + a.val) (2048 * (n / 4 % 2) + d.val) (1024 * (n % 4 + 1)) := by
  intro n
  induction n with
  | zero =>
    intro hn a d
    rw [first_pt m c ⟨0, hn⟩ rfl, step_apply, Payload.pay1_apply, zero_add]
    show _ = psum _ _ _ _ (0 + 1024)
    rw [psum_add, psum_zero, zero_add]
    rfl
  | succ n ih =>
    intro hn a d
    by_cases h0 : (n + 1) % 4 = 0
    · rw [first_pt m c ⟨n + 1, hn⟩ h0, step_apply, Payload.pay1_apply, zero_add]
      show _ = psum _ _ _ _ (1024 * ((n + 1) % 4 + 1))
      rw [show 1024 * ((n + 1) % 4 + 1) = 0 + 1024 from by omega, psum_add, psum_zero, zero_add]
      show ∑ b : Fin 1024, at2 _ _ (1024 * ((n + 1) % 4) + b.val) * at2 _ (1024 * ((n + 1) % 4) + b.val) _ = _
      rw [show 1024 * ((n + 1) % 4) = 0 from by omega]
    · rw [next_pt m c ⟨n + 1, hn⟩ h0, step_apply]
      show (outsAt0 m c n _).2 (ix2 a d) + ∑ b : Fin 1024, at2 _ (1024 * ((n + 1) / 8) + a.val) (1024 * ((n + 1) % 4) + b.val) * at2 _ (1024 * ((n + 1) % 4) + b.val) (2048 * ((n + 1) / 4 % 2) + d.val) = _
      rw [ih _ a d, show (n + 1) / 8 = n / 8 from by omega, show (n + 1) / 4 % 2 = n / 4 % 2 from by omega,
        show 1024 * ((n + 1) % 4 + 1) = 1024 * (n % 4 + 1) + 1024 from by omega,
        show 1024 * ((n + 1) % 4) = 1024 * (n % 4 + 1) from by omega, psum_add]

end Cert.KernelIdeal.Acc

end
-- ==== Proof.Out.lean ====
import proofs.«163641_j57492432224589_2_alg».proof.Proof.Acc
import Idealize.ShloMosaic.Lib.StableHlo.Run

/-! From the output blocks to the result.

The product array `P` has, at row `r` and column `q`, the full inner product of row `r` of the left
matrix with column `q` of the right matrix, times the scale of column `q`.  The block written back
at the last step `k = 3` of output block `(i, j)` is rows `1024·i …`, columns `2048·j …` of `P`; the
sixteen output blocks tile the array; and the result is `P` with its row axis split in two. -/

noncomputable section

namespace Cert.KernelIdeal.Out

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx Cert.Spec Cert.KernelIdeal.Blocks

variable (m : (ℓ : Loc nD τ sig) → Buf (Elt Ideal) ℓ) (ρ : Dev nD → PrngReg)

/-- The product array. -/
def P (c : Dev nD) : S8192x4096.Idx → EReal := fun i =>
  (∑ κ : Fin 4096, X m c (ix2 (i 0) κ) * W m c (ix2 κ (i 1))) * Sc m c (ix2 0 (i 1))

/-- Entry `(a, d)` of the block a last step leaves is entry `(1024·i + a, 2048·j + d)` of `P`. -/
theorem out_apply (c : Dev nD) (t : Fin cfg0.N) (h3 : t.val % 4 = 3) (a : Fin 1024) (d : Fin 2048)
    (r : Fin 8192) (q : Fin 4096) (hr : r.val = 1024 * (t.val / 8) + a.val) (hq : q.val = 2048 * (t.val / 4 % 2) + d.val) :
    (outsAt0 m c t.val t.isLt).1 (ix2 a d) = P m c (ix2 r q) := by
  rw [Acc.out_pt m c t h3, Payload.pay3_apply, Acc.acc_eq, blk2, ← hr, ← hq,
    show 1024 * (t.val % 4 + 1) = 4096 from by omega, psum_full, at2_of_lt (Sc m c) 0 q.val (by decide) q.isLt]
  rfl

/-- Where point `t`'s output block sits in the array. -/
theorem emb3 (t : Fin cfg0.N) (a : Fin 1024) (d : Fin 2048) (r : Fin 8192) (q : Fin 4096)
    (hr : r.val = 1024 * (t.val / 8) + a.val) (hq : q.val = 2048 * (t.val / 4 % 2) + d.val) :
    ((cfg0.win 3).blk t).view.emb (ix2 a d) = ix2 r q := by
  obtain ⟨-, -, -, -, -, -, e0, e1⟩ := idx_facts t
  funext x
  apply Fin.ext
  match x with
  | ⟨0, _⟩ => show win0_3.index t 0 * 1024 + 1 * a.val = r.val; rw [e0, hr]; omega
  | ⟨1, _⟩ => show win0_3.index t 1 * 2048 + 1 * d.val = q.val; rw [e1, hq]; omega

/-- Entry `j` of the block a last step leaves is `P` at the place of `j` in the array. -/
theorem flushed_apply (c : Dev nD) (t : Fin cfg0.N) (h3 : t.val % 4 = 3) (j : S1024x2048.Idx) :
    (outsAt0 m c t.val t.isLt).1 j = P m c (((cfg0.win 3).blk t).view.emb j) := by
  have hN : t.val < 64 := lt_of_lt_of_eq t.isLt N_0
  obtain ⟨a, d, rfl⟩ : ∃ (a : Fin 1024) (d : Fin 2048), j = ix2 a d := ⟨j 0, j 1, eq_ix2 j⟩
  have ha : a.val < 1024 := a.isLt
  have hd : d.val < 2048 := d.isLt
  rw [emb3 t a d ⟨1024 * (t.val / 8) + a.val, by omega⟩ ⟨2048 * (t.val / 4 % 2) + d.val, by omega⟩ rfl rfl]
  exact out_apply m c t h3 a d _ _ rfl rfl

/-- WHAT A LAST STEP WRITES BACK is its block of `P`. -/
theorem flushed_eq (c : Dev nD) (t : Fin cfg0.N) (hf : (cfg0.win 3).flush t = true) :
    (dats m 0 c).flushed 3 t = ((cfg0.win 3).blk t).view.read (Elt Ideal) (P m c) := by
  have h3 : t.val % 4 = 3 := (flush0_3 t).mp hf
  show (cfg0.win 3).cut (grid0.coords t) ((dats m 0 c).after 3 t) = _
  rw [after0_3]
  funext j
  show (outsAt0 m c t.val t.isLt).1 j = P m c (((cfg0.win 3).blk t).view.emb j)
  exact flushed_apply m c t h3 j

/-- An index of the array is in point `t`'s block iff each coordinate is in the block's range. -/
theorem mem_blk (t : Fin cfg0.N) (i : S8192x4096.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_call0_v9).slice (win0_3.rect t)).set ↔ _
  rw [View.set_slice_whole, Rect.mem_set_unit]
  exact Iff.rfl

/-- The sixteen last steps' blocks cover the array: entry `(r, q)` lies in the block of output block
    `(r / 1024, q / 2048)`. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  refine ⟨⟨8 * ((i 0).val / 1024) + 4 * ((i 1).val / 2048) + 3, by omega⟩, ?_, ?_⟩
  · exact (flush0_3 _).mpr (by show (8 * ((i 0).val / 1024) + 4 * ((i 1).val / 2048) + 3) % 4 = 3; omega)
  · rw [mem_blk]
    obtain ⟨-, -, -, -, -, -, e0, e1⟩ := idx_facts ⟨8 * ((i 0).val / 1024) + 4 * ((i 1).val / 2048) + 3, by omega⟩
    intro a
    match a with
    | ⟨0, _⟩ =>
      show win0_3.index _ 0 * 1024 ≤ (i 0).val ∧ (i 0).val < win0_3.index _ 0 * 1024 + 1024
      rw [e0]
      show (8 * ((i 0).val / 1024) + 4 * ((i 1).val / 2048) + 3) / 8 * 1024 ≤ (i 0).val ∧ (i 0).val < (8 * ((i 0).val / 1024) + 4 * ((i 1).val / 2048) + 3) / 8 * 1024 + 1024
      omega
    | ⟨1, _⟩ =>
      show win0_3.index _ 1 * 2048 ≤ (i 1).val ∧ (i 1).val < win0_3.index _ 1 * 2048 + 2048
      rw [e1]
      show (8 * ((i 0).val / 1024) + 4 * ((i 1).val / 2048) + 3) / 4 % 2 * 2048 ≤ (i 1).val ∧ (i 1).val < (8 * ((i 0).val / 1024) + 4 * ((i 1).val / 2048) + 3) / 4 % 2 * 2048 + 2048
      omega

/-- So the output array ends holding `P`. -/
theorem final (c : Dev nD) : (dats m 0 c).arrAt 3 cfg0.N = P m c :=
  (dats m 0 c).arrAt_eq_of_cover 3 (P m c) (flushed_eq m c) cover

/-- The result: `P` with its row axis split into (4, 2048). -/
def result (c : Dev nD) : S4x2048x4096.Idx → EReal :=
  shapeCast S4x2048x4096 (P m c) shapeCasts_S8192x4096_S4x2048x4096

theorem tail_eq (c : Dev nD) :
    Pipeline.afterTail₀ cfgs (dats m) 0 (V0 m) [hostOps1] c main_v0 = result m c := by
  unfold Pipeline.afterTail₀
  show StableHlo.after hostOps1 _ (Proc.devRef .tc main_v0) = _
  after_results
  have hW : Pipeline.withArrays spec0 c (V0 m c) (fun w => (dats m 0 c).arrAt w cfg0.N) (Proc.devRef .tc main_call0_v9) = P m c :=
    (Pipeline.withArrays_arr spec0 launch0.win.arr_inj c _ _ 3).trans (final m c)
  show shapeCast S4x2048x4096 (Pipeline.withArrays spec0 c (V0 m c) (fun w => (dats m 0 c).arrAt w cfg0.N) (Proc.devRef .tc main_call0_v9)) shapeCasts_S8192x4096_S4x2048x4096 = _
  rw [hW]
  rfl

/-- THE RUN, READ: every weakly fair execution ends with the result buffer at `result` and both inputs
    as launched. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Out

end
-- ==== Proof.HostIn.lean ====
import proofs.«163641_j57492432224589_2_alg».proof.Proof.Blocks
import Idealize.ShloMosaic.Lib.StableHlo.Run
import Idealize.ShloMosaic.Lib.Pipeline.Value

/-! The three arrays the region is launched on, as functions of the two inputs.

The left matrix is the input `x` with its two leading axes merged: row `2048·b + s` is `x[b, s, ·]`.
The right matrix is the transposed sign matrix: entry `(κ, o)` is `sign w[o, κ]`.  The scale row's
entry `o` is the row sum of `|w[o, ·]|` (from zero) divided by 4096. -/

noncomputable section

namespace Cert.KernelIdeal.HostIn

open Cert.KernelIdeal Cert.KernelIdeal.Gen Idealize.ShloMosaic Idealize.ShloMosaic.TcCoe Idealize.SL.Sem
open Idealize.ShloMosaic.StableHlo Idealize.ShloMosaic.ValueIdx Cert.KernelIdeal.Blocks

variable (m : (ℓ : Loc nD τ sig) → Buf (Elt Ideal) ℓ)

/-- The two inputs as launched. -/
abbrev xin (c : Dev nD) : FVec Ideal S4x2048x4096 .f32 := m ((c : Thread nD τ).loc main_arg0)
abbrev win (c : Dev nD) : FVec Ideal S4096x4096 .f32 := m ((c : Thread nD τ).loc main_arg1)

/-- The row sums of `|w|`, from zero. -/
abbrev absSum (c : Dev nD) : FVec Ideal S4096 .f32 :=
  Host.reduceAdd (F := Ideal) (Host.absf (win m c)) (constant S_ .f32 0x00000000#32) reducesTo_S4096x4096_S4096_d1 h_S_

theorem X_eq (c : Dev nD) : X m c = shapeCast S8192x4096 (xin m c) shapeCasts_S4x2048x4096_S8192x4096 := by
  show StableHlo.after hostOps0 (fun b => m (c, b)) (Proc.devRef .tc main_call0_v8) = _
  after_results
  rfl

theorem W_eq (c : Dev nD) : W m c = (truncf .bf16 (transpose S4096x4096 [1, 0] (Host.sign (win m c)) transposes_S4096x4096_S4096x4096_1_0) bitsLt_bf16_f32 : FVec Ideal S4096x4096 .bf16) := by
  show StableHlo.after hostOps0 (fun b => m (c, b)) (Proc.devRef .tc main_call0_v6) = _
  after_results
  rfl

theorem Sc_eq (c : Dev nD) : Sc m c = shapeCast S1x4096 (Host.divf (absSum m c) (broadcastInDim S4096 ![] bcast_S_S4096 (constant (F := Ideal) S_ .f32 0x45800000#32)) : FVec Ideal S4096 .f32) shapeCasts_S4096_S1x4096 := by
  show StableHlo.after hostOps0 (fun b => m (c, b)) (Proc.devRef .tc main_call0_v7) = _
  after_results
  rfl

/-- Row `2048·b + s` of the left matrix is `x[b, s, ·]`. -/
theorem X_apply (c : Dev nD) (b : Fin 4) (s : Fin 2048) (κ : Fin 4096) (r : Fin 8192) (hr : r.val = 2048 * b.val + s.val) :
    X m c (ix2 r κ) = xin m c (ix3 b s κ) := by
  rw [X_eq]
  exact shapeCast_apply _ _ (ix2 r κ) (ix3 b s κ) (by
    rw [Shape.rowMajor_val_three, Shape.rowMajor_val_two]
    show (b.val * 2048 + s.val) * 4096 + κ.val = r.val * 4096 + κ.val
    omega)

/-- Entry `(κ, o)` of the right matrix is the sign of `w[o, κ]`. -/
theorem W_apply (c : Dev nD) (κ o : Fin 4096) : W m c (ix2 κ o) = Ideal.sign (win m c (ix2 o κ)) := by
  rw [W_eq, truncf_apply]
  exact transpose_apply [1, 0] _ _ (ix2 κ o) (ix2 o κ) (fun b => match b with | ⟨0, _⟩ => rfl | ⟨1, _⟩ => rfl)

/-- Entry `o` of the scale row is the row sum of `|w[o, ·]|` divided by the constant `4096.0`. -/
theorem Sc_apply (c : Dev nD) (o : Fin 4096) :
    Sc m c (ix2 0 o) = Ideal.div (absSum m c (ix1 o)) (Ideal.ofBits .f32 0x45800000#32) := by
  rw [Sc_eq]
  refine (shapeCast_apply _ _ (ix2 0 o) (ix1 o) (by
    rw [Shape.rowMajor_val_one, Shape.rowMajor_val_two]
    show o.val = 0 * 4096 + o.val
    omega)).trans ?_
  show Ideal.div (absSum m c (ix1 o)) (broadcastInDim S4096 ![] bcast_S_S4096 (constant (F := Ideal) S_ .f32 0x45800000#32) (ix1 o)) = _
  rw [broadcastInDim_apply _ bcast_S_S4096 _ (ix1 o) ix0 (fun a => a.elim0)]
  rfl

end Cert.KernelIdeal.HostIn

end
-- ==== Proof.Finite.lean ====
import proofs.«163641_j57492432224589_2_alg».proof.Proof.Gen.Pre_finite_inputs
import Idealize.ShloMosaic.Lib.ReduceAll
import Idealize.ShloMosaic.Lib.ValueIdx
import Idealize.ShloMosaic.PureOps.Ideal.Laws

/-! The precondition, entry by entry: every entry of both inputs is a real number.

The precondition says of each input that all its entries have absolute value below `+∞`; over the
extended reals that excludes exactly the two infinities. -/

noncomputable section

namespace Cert.Finite

open Idealize.ShloMosaic Cert.Pre_finite_inputs

instance : Subsingleton S_.Idx := ⟨fun a b => funext fun d => d.elim0⟩

/-- The f32 pattern of `+∞` denotes `⊤`. -/
theorem ofBits_inf : Ideal.ofBits .f32 0x7F800000#32 = ⊤ := by
  simp [Ideal.ofBits, Ideal.ieee]

/-- The f32 pattern of `4096.0` denotes the real 4096. -/
theorem ofBits_4096 : Ideal.ofBits .f32 0x45800000#32 = ((4096 : ℝ) : EReal) := by
  simp [Ideal.ofBits, Ideal.ieee, -EReal.coe_mul]; norm_num

/-- An extended real whose absolute value is below `⊤` is a real. -/
theorem real_of_abs_lt_top (x : EReal) (h : Ideal.cmp .olt (max x (-x)) ⊤ = 1#1) : ∃ r : ℝ, x = r := by
  induction x using EReal.rec with
  | bot => exact absurd h (by simp [Ideal.cmp])
  | top => exact absurd h (by simp [Ideal.cmp])
  | coe r => exact ⟨r, rfl⟩

/-- Under the precondition every entry of both inputs is a real. -/
theorem real_of_pre (x : FVec Ideal S4x2048x4096 .f32) (w : FVec Ideal S4096x4096 .f32)
    (h : Cert.Pre_finite_inputs.fn (F := Ideal) x w = fun _ => 1#1) :
    (∀ i, ∃ r : ℝ, x i = r) ∧ (∀ i, ∃ r : ℝ, w i = r) := by
  have h0 := congrFun h ValueIdx.ix0
  dsimp only [Cert.Pre_finite_inputs.fn] at h0
  obtain ⟨hx, hw⟩ := IntOp.andi_eq_one.mp h0
  refine ⟨fun i => ?_, fun i => ?_⟩
  · have e := Host.reduce_andi_all _ _ _ _ _ hx i
    exact real_of_abs_lt_top (x i) (by rw [← ofBits_inf]; exact e)
  · have e := Host.reduce_andi_all _ _ _ _ _ hw i
    exact real_of_abs_lt_top (w i) (by rw [← ofBits_inf]; exact e)

end Cert.Finite

end
-- ==== Proof.RefSide.lean ====
import proofs.«163641_j57492432224589_2_alg».proof.Proof.Law
import proofs.«163641_j57492432224589_2_alg».proof.Proof.Finite
import Idealize.ShloMosaic.Lib.ValueIdx
import proofs.«163641_j57492432224589_2_alg».proof.Proof.Gen.ReferenceIdeal.Read

/-! The two programs compute one function of finite inputs.

The kernel's result at `(b, s, o)` is `(∑ᵢ x[b,s,i] · sign w[o,i]) · σₒ`, the reference's is
`∑ᵢ x[b,s,i] · (sign w[o,i] · σₒ)`, where `σₒ` is the row sum of `|w[o,·]|` divided by 4096, the same
term on both sides.  Every factor is a real number when the inputs are finite — a sign is `-1`, `0`
or `1`, a finite sum of reals divided by 4096 is a real — so the factor `σₒ` moves inside the sum. -/

noncomputable section

namespace Cert.Bridge

open Idealize.ShloMosaic Idealize.ShloMosaic.TcCoe Idealize.SL.Sem Idealize.ShloMosaic.ValueIdx
open Cert.ReferenceIdeal.Read

/-- The sign of a real is a real. -/
theorem sign_real (a : EReal) (h : ∃ r : ℝ, a = r) : ∃ r : ℝ, Ideal.sign a = r := by
  obtain ⟨r, rfl⟩ := h
  exact ⟨_, Ideal.sign_coe r⟩

/-- The absolute value of a real is a real. -/
theorem abs_real (a : EReal) (h : ∃ r : ℝ, a = r) : ∃ r : ℝ, max a (-a) = r := by
  obtain ⟨r, rfl⟩ := h
  rw [← EReal.coe_neg]
  rcases le_total r (-r) with h | h
  · exact ⟨-r, max_eq_right (EReal.coe_le_coe_iff.mpr h)⟩
  · exact ⟨r, max_eq_left (EReal.coe_le_coe_iff.mpr h)⟩

/-- The scale of output column `o`: the row sum of `|w[o, ·]|` (from zero) divided by `4096.0`. -/
abbrev scale (w : FVec Ideal Cert.ReferenceIdeal.S4096x4096 .f32) (o : Fin 4096) : EReal :=
  Ideal.div (val_main_v1 (F := Ideal) w (ix1 o)) (Ideal.ofBits .f32 0x45800000#32)

/-- It is a real when `w` is finite. -/
theorem scale_real (w : FVec Ideal Cert.ReferenceIdeal.S4096x4096 .f32) (hw : ∀ i, ∃ r : ℝ, w i = r) (o : Fin 4096) :
    ∃ r : ℝ, scale w o = r := by
  unfold scale
  rw [val_main_v1_apply, Cert.Finite.ofBits_4096, Ideal.div_coe (by norm_num)]
  obtain ⟨r, hr⟩ := Cert.Law.sum_real Finset.univ (fun k => val_main_v0 (F := Ideal) w (idx_main_v1 (ix1 o) k))
    (fun k => abs_real _ (hw _))
  rw [hr]
  refine ⟨(0 + r) * (1 / 4096), ?_⟩
  show (Ideal.ofBits .f32 0x00000000#32 + (r : EReal)) * _ = _
  rw [Ideal.ofBits_zero_f32, EReal.coe_mul, EReal.coe_add, EReal.coe_zero]

/-- THE LAW BETWEEN THE TWO SIDES, at one output entry. -/
theorem reference_apply (x : FVec Ideal Cert.ReferenceIdeal.S4x2048x4096 .f32) (w : FVec Ideal Cert.ReferenceIdeal.S4096x4096 .f32)
    (hx : ∀ i, ∃ r : ℝ, x i = r) (hw : ∀ i, ∃ r : ℝ, w i = r) (b : Fin 4) (s : Fin 2048) (o : Fin 4096) :
    val_main_v8 (F := Ideal) x w (ix3 b s o)
      = (∑ κ : Fin 4096, x (ix3 b s κ) * Ideal.sign (w (ix2 o κ))) * scale w o := by
  rw [val_main_v8_apply,
    Cert.Law.sum_mul_of_real _ _ _ (fun k => hx _) (fun k => sign_real _ (hw _)) (scale_real w hw o)]
  refine Finset.sum_congr rfl fun κ _ => ?_
  have el : lidx_main_v8 (ix3 b s o) κ = ix3 b s κ := funext fun a => Fin.ext (by
    match a with
    | ⟨0, _⟩ => rfl
    | ⟨1, _⟩ => rfl
    | ⟨2, _⟩ => rfl)
  have er : ridx_main_v8 (ix3 b s o) κ = ix2 o κ := funext fun a => Fin.ext (by
    match a with
    | ⟨0, _⟩ => rfl
    | ⟨1, _⟩ => rfl)
  have e6 : idx_main_v2 (idx_main_v6 (ix2 o κ)) = ix1 o := funext fun a => Fin.ext (by
    match a with
    | ⟨0, _⟩ => rfl)
  rw [el, er, val_main_v7_apply, val_main_v5_apply, val_main_v6_apply, val_main_v4_apply, val_main_v2_apply,
    val_main_v3_apply, val_main_cst_0_apply, e6]
  rfl

end Cert.Bridge

end
-- ==== Proof.Bridge.lean ====
import proofs.«163641_j57492432224589_2_alg».proof.Proof.Out
import proofs.«163641_j57492432224589_2_alg».proof.Proof.HostIn
import proofs.«163641_j57492432224589_2_alg».proof.Proof.RefSide

/-! The kernel's result, entry by entry, in the inputs' own terms: the product array read through
the final reshape, its three operand arrays read through the host operations that made them. -/

noncomputable section

namespace Cert.KernelIdeal.Bridge

open Cert.KernelIdeal Cert.KernelIdeal.Gen Idealize.ShloMosaic Idealize.ShloMosaic.TcCoe Idealize.SL.Sem
open Idealize.ShloMosaic.ValueIdx Cert.KernelIdeal.Blocks Cert.KernelIdeal.HostIn

variable (m : (ℓ : Loc nD τ sig) → Buf (Elt Ideal) ℓ)

/-- The kernel's result at `(b, s, o)`: the inner product of `x[b, s, ·]` with the signs of `w[o, ·]`,
    times the scale of `o`. -/
theorem kernel_apply (c : Dev nD) (b : Fin 4) (s : Fin 2048) (o : Fin 4096) :
    Out.result m c (ix3 b s o)
      = (∑ κ : Fin 4096, xin m c (ix3 b s κ) * Ideal.sign (win m c (ix2 o κ))) * Cert.Bridge.scale (win m c) o := by
  have hb : b.val < 4 := b.isLt
  have hs : s.val < 2048 := s.isLt
  unfold Out.result
  refine (shapeCast_apply _ _ (ix3 b s o) (ix2 (⟨2048 * b.val + s.val, by omega⟩ : Fin 8192) o) (by
    rw [Shape.rowMajor_val_two, Shape.rowMajor_val_three]
    show (2048 * b.val + s.val) * 4096 + o.val = (b.val * 2048 + s.val) * 4096 + o.val
    omega)).trans ?_
  show (∑ κ : Fin 4096, X m c (ix2 _ κ) * W m c (ix2 κ o)) * Sc m c (ix2 0 o) = _
  rw [Sc_apply]
  refine congrArg₂ (· * ·) (Finset.sum_congr rfl fun κ _ => ?_) rfl
  rw [X_apply m c b s κ _ rfl, W_apply]

end Cert.KernelIdeal.Bridge

end
-- ==== Proof.lean ====
/- The five claims for a binarized linear layer: `x` of shape (4, 2048, 4096) against the weight `w` of
   shape (4096, 4096), binarized to `sign w[o,i] · σₒ` with `σₒ` the mean of `|w[o,·]|`.

   The reference contracts `x` with the binarized weight: `∑ᵢ x[b,s,i] · (sign w[o,i] · σₒ)`.  The kernel
   contracts `x` with the signs alone, 1024 shared coordinates at a time into an accumulator carried along
   the innermost grid axis, and multiplies by `σₒ` once, when the accumulator is complete:
   `(∑ᵢ x[b,s,i] · sign w[o,i]) · σₒ`.  Over the extended reals the two agree when every factor is a real
   number, which the finiteness of the inputs gives; the order in which the kernel gathers the sum does not
   matter there.  The three frames are the programs' runs with the results dropped, and the idealization
   rewrote nothing. -/
import proofs.«163641_j57492432224589_2_alg».proof.Defs
import proofs.«163641_j57492432224589_2_alg».proof.Proof.Gen.Kernel
import proofs.«163641_j57492432224589_2_alg».proof.Proof.Gen.Kernel.Skeleton
import proofs.«163641_j57492432224589_2_alg».proof.Proof.Gen.Kernel.Launch
import proofs.«163641_j57492432224589_2_alg».proof.Proof.Gen.Kernel.Points
import proofs.«163641_j57492432224589_2_alg».proof.Proof.Gen.Kernel.Frame
import proofs.«163641_j57492432224589_2_alg».proof.Proof.Gen.KernelIdeal
import proofs.«163641_j57492432224589_2_alg».proof.Proof.Gen.KernelIdeal.Skeleton
import proofs.«163641_j57492432224589_2_alg».proof.Proof.Gen.KernelIdeal.Launch
import proofs.«163641_j57492432224589_2_alg».proof.Proof.Gen.KernelIdeal.Points
import proofs.«163641_j57492432224589_2_alg».proof.Proof.Gen.KernelIdeal.Frame
import proofs.«163641_j57492432224589_2_alg».proof.Proof.Gen.ReferenceIdeal
import proofs.«163641_j57492432224589_2_alg».proof.Proof.Gen.ReferenceIdeal.Run
import proofs.«163641_j57492432224589_2_alg».proof.Proof.Gen.ReferenceIdeal.Read
import proofs.«163641_j57492432224589_2_alg».proof.Proof.Gen.Pre_finite_inputs
import proofs.«163641_j57492432224589_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the kernel's product array reshaped; for the reference that is its
    own contraction, entry by entry, by the one law that moves the scale inside the sum. -/
theorem algebraic : Cert.algebraic_KernelIdeal_ReferenceIdeal := by
  intro m ρ m' ρ' hpre hagree
  refine ⟨fun c => Cert.KernelIdeal.Out.result m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v8_eq]
  obtain ⟨hx, hw⟩ := Cert.Finite.real_of_pre _ _ (hpre c)
  funext i
  obtain ⟨b, s, o, rfl⟩ : ∃ (b : Fin 4) (s : Fin 2048) (o : Fin 4096), i = ix3 b s o := ⟨i 0, i 1, i 2, eq_ix3 i⟩
  rw [Cert.Bridge.reference_apply _ _ hx hw]
  exact (Cert.KernelIdeal.Bridge.kernel_apply m c b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
